-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S5000x64 : Shape := ⟨2, ![5000, 64]⟩
abbrev S5000x1 : Shape := ⟨2, ![5000, 1]⟩
abbrev S800000x64 : Shape := ⟨2, ![800000, 64]⟩

abbrev nBuf : Space → Nat
  | .hbm => 66
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x1, .f32⟩
  | .hbm, ⟨33, _⟩ => ⟨S1x64, .f32⟩
  | .hbm, ⟨34, _⟩ => ⟨S1x64, .f32⟩
  | .hbm, ⟨35, _⟩ => ⟨S50000x64, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .bf16⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x64, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .bf16⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .bf16⟩
  | .local _ .vmem, ⟨5, _⟩ => ⟨S5000x64, .bf16⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S5000x64, .bf16⟩
  | .local _ .vmem, ⟨15, _⟩ => ⟨S5000x64, .bf16⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .bf16 = 32 ∨ (Rect.block (s := S50000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x1, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S_, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x64, .f32⟩
  | .hbm, ⟨83, _⟩ => ⟨S50000x64, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .f32⟩
  | .hbm, ⟨93, _⟩ => ⟨S_, .f32⟩
  | .hbm, ⟨94, _⟩ => ⟨S50000x64, .f32⟩
  | .hbm, ⟨95, _⟩ => ⟨S800000x1, .i32⟩
  | .hbm, ⟨96, _⟩ => ⟨S50000x64, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_call4_v0 : Ref sig .tc := ⟨.hbm, 75, rfl⟩
abbrev main_call4_v1 : Ref sig .tc := ⟨.hbm, 76, rfl⟩
abbrev main_v44 : Ref sig .tc := ⟨.hbm, 77, rfl⟩
abbrev main_cst_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_17 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KResultRun.lean ====
/-
  The kernel program's run, with its result named.

  The program is three tiled regions among stretches of host operations. Its run ends with every buffer
  that is not scoped to a region at the contents the last boundary of the fold names; the result buffer is
  the output array of the third region, so it ends at what that region's write-backs leave: block by block,
  the dense stage of the second layer. The seven argument arrays end as they were launched.
-/
import proofs.«119130_j43009802502553_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds what the
    third region's write-backs leave in it, and each argument array what it held at launch. -/
theorem run_result : θ_run defs (onTc (τ := τ) (main (F := F))) ⟨m, fun _ => 0, ρ⟩ (fun r => ∀ c : Dev nD,
      r.2.mem ((c.tc : Thread nD τ).loc main_v41) = (dat2 (V9 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v41 (by decide))).trans (W10_arr m ρ c 4),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.ResultRun

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibHostLin.lean ====
/-
  The host's dense layer, read at an entry.

  On the extended reals the host computes a dense layer of an [N, K] array x as max (x · W + b, 0): a product of plain
  dimension numbers, the bias vector b : [C] spread first to a row [1, C] and then over the N rows, and the maximum with
  the zero scalar spread over [N, C]. At the entry (p, q) that is max ((∑ k, x (p, k) · W (k, q)) + b q) 0; without the
  maximum, (∑ k, x (p, k) · W (k, q)) + b q. A bias vector reshaped to a row has entry (0, q) equal to entry q. The
  extents are arbitrary.
-/
import Idealize.ShloMosaic.Lib.ValueLayout
import Idealize.ShloMosaic.Lib.Pipeline.Value
import proofs.«119130_j43009802502553_2_alg».proof.Proof.LibPlainDot

noncomputable section

namespace HostLin

open Idealize.ShloMosaic Idealize.ShloMosaic.ValueIdx
open scoped BigOperators

variable {α : Type}

/-- A vector spread to a row and then over N rows: entry (p, q) is entry q. -/
theorem bias_bcast_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (p : Fin N) (q : Fin C) :
    broadcastInDim ⟨2, ![N, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
    match a with
    | ⟨0, _⟩ => simp [ix2]
    | ⟨1, _⟩ =>
      show q.val = if C = 1 then 0 else q.val
      split_ifs with hC
      · subst hC; omega
      · rfl)]
  rw [broadcastInDim_apply ![1] h1 b (ix2 (0 : Fin 1) q) (ix1 q) (fun a => by
    match a with
    | ⟨0, _⟩ =>
      show q.val = if C = 1 then 0 else q.val
      split_ifs with hC
      · subst hC; omega
      · rfl)]

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply ![] h y i ix0 (fun a => a.elim0)

/-- A vector reshaped to a row: entry (0, q) is entry q. -/
theorem row_apply {C : Nat} (h : (⟨1, ![C]⟩ : Shape).ShapeCasts ⟨2, ![1, C]⟩) (b : (⟨1, ![C]⟩ : Shape).Idx → α) (q : Fin C) :
    shapeCast ⟨2, ![1, C]⟩ b h (ix2 (0 : Fin 1) q) = b (ix1 q) :=
  shapeCast_a_1a_apply b h 0 q

/-- The host's affine layer x · W + b at (p, q). -/
theorem affine_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : FVec Ideal ⟨2, ![N, K]⟩ .f32) (W : FVec Ideal ⟨2, ![K, C]⟩ .f32) (b : FVec Ideal ⟨1, ![C]⟩ .f32) (p : Fin N) (q : Fin C) :
    addf (Host.dotGeneral d none x W) (broadcastInDim ⟨2, ![N, C]⟩ ![0, 1] h2 (broadcastInDim ⟨2, ![1, C]⟩ ![1] h1 b)) (ix2 p q)
      = (∑ k : Fin K, x (ix2 p k) * W (ix2 k q)) + b (ix1 q) := by
  subst hd
  rw [addf_apply, bias_bcast_apply]
  exact congrArg (· + b (ix1 q)) (Cert.PlainDot.dotGeneral_apply none .single x W p q)

/-- The host's dense layer max (x · W + b, 0) at (p, q). -/
theorem relu_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (x : FVec Ideal ⟨2, ![N, K]⟩ .f32) (W : FVec Ideal ⟨2, ![K, C]⟩ .f32) (b : FVec Ideal ⟨1, ![C]⟩ .f32) (p : Fin N) (q : Fin C) :
    maximumf (addf (Host.dotGeneral d none x W) (broadcastInDim ⟨2, ![N, C]⟩ ![0, 1] h2 (broadcastInDim ⟨2, ![1, C]⟩ ![1] h1 b)))
        (broadcastInDim ⟨2, ![N, C]⟩ ![] h0 (constant (F := Ideal) ⟨0, ![]⟩ .f32 0x00000000#32)) (ix2 p q)
      = max ((∑ k : Fin K, x (ix2 p k) * W (ix2 k q)) + b (ix1 q)) 0 := by
  rw [maximumf_apply, affine_apply d hd h1 h2, scalar_bcast_apply, constant_apply]
  exact congrArg (max _) Ideal.ofBits_zero_f32

end HostLin

end
-- ==== Proof.LibGcnTile.lean ====
/-
  One graph-convolution layer's dense stages, read at an entry, for any extents.

  A layer multiplies each row of a node array by that node's degree factor, sums rows along the edges, multiplies
  by the other degree factor, and applies a dense map. Three whole-array functions on the extended reals carry the
  row-wise part, the degree factors kept as [a, 1] columns and the bias as a [1, C] row:
    • scaleRows x n      (p, q) ↦ x (p, q) · n (p, 0);
    • denseRows x n W b  (p, q) ↦ (∑ k, (x (p, k) · n (p, 0)) · W (k, q)) + b (0, q);
    • fusedRows x n W b n' (p, q) ↦ max (denseRows x n W b (p, q)) 0 · n' (p, 0).
  Each is what a tile of a kernel computes from its loaded blocks (the narrowing of a product's operands to a
  shorter float format changes nothing on the extended reals, and the product into the zero accumulator is the plain
  sum), and what the host's whole-array operations compute when the column is a vector spread along axis 0 and the
  row a vector spread along axis 1. A row of any of the three depends on the same row of x, n and n' only, which is
  why a block of rows of the function is the function of the blocks of rows: `scaleRows_rows`, `denseRows_rows`,
  `fusedRows_rows`. Nothing is assumed finite: both sides are the same operations in the same order.
-/
import Idealize.ShloMosaic.Lib.ValueLayout
import Idealize.ShloMosaic.Lib.Pipeline.Value
import proofs.«119130_j43009802502553_2_alg».proof.Proof.LibPlainDot
import proofs.«119130_j43009802502553_2_alg».proof.Proof.LibKeepdims
import proofs.«119130_j43009802502553_2_alg».proof.Proof.LibHostLin

noncomputable section

namespace GcnTile

open Idealize.ShloMosaic Idealize.ShloMosaic.ValueIdx
open scoped BigOperators

/-! ## The three row-wise functions -/

/-- Each row of x times that row's factor. -/
def scaleRows {a b : ℕ} (x : (⟨2, ![a, b]⟩ : Shape).Idx → EReal) (n : (⟨2, ![a, 1]⟩ : Shape).Idx → EReal) :
    (⟨2, ![a, b]⟩ : Shape).Idx → EReal :=
  fun i => x i * n (ix2 (i 0) (0 : Fin 1))

/-- The scaled rows through a dense map with a bias row. -/
def denseRows {a K C : ℕ} (x : (⟨2, ![a, K]⟩ : Shape).Idx → EReal) (n : (⟨2, ![a, 1]⟩ : Shape).Idx → EReal)
    (W : (⟨2, ![K, C]⟩ : Shape).Idx → EReal) (b : (⟨2, ![1, C]⟩ : Shape).Idx → EReal) : (⟨2, ![a, C]⟩ : Shape).Idx → EReal :=
  fun i => (∑ k : Fin K, (x (ix2 (i 0) k) * n (ix2 (i 0) (0 : Fin 1))) * W (ix2 k (i 1))) + b (ix2 (0 : Fin 1) (i 1))

/-- The dense stage clamped at zero and scaled by a second factor per row. -/
def fusedRows {a K C : ℕ} (x : (⟨2, ![a, K]⟩ : Shape).Idx → EReal) (n : (⟨2, ![a, 1]⟩ : Shape).Idx → EReal)
    (W : (⟨2, ![K, C]⟩ : Shape).Idx → EReal) (b : (⟨2, ![1, C]⟩ : Shape).Idx → EReal) (n' : (⟨2, ![a, 1]⟩ : Shape).Idx → EReal) :
    (⟨2, ![a, C]⟩ : Shape).Idx → EReal :=
  fun i => max (denseRows x n W b i) 0 * n' (ix2 (i 0) (0 : Fin 1))

/-! ## What a kernel tile computes -/

/-- The scaling tile: the loaded block times its column spread over the lanes, narrowed. -/
theorem scale_tile {a b : ℕ} {ψ : FTy} (x : FVec Ideal ⟨2, ![a, b]⟩ .f32) (n : FVec Ideal ⟨2, ![a, 1]⟩ .f32)
    (h1 : (⟨2, ![a, 1]⟩ : Shape).ShapeCasts ⟨2, ![a, 1]⟩) (h2 : (⟨2, ![a, 1]⟩ : Shape).Broadcasts ⟨2, ![a, b]⟩)
    (hlt : ψ.bits < FTy.bits .f32) :
    (truncf ψ (mulf x (broadcastTo ⟨2, ![a, b]⟩ (shapeCast ⟨2, ![a, 1]⟩ n h1) h2)) hlt : FVec Ideal ⟨2, ![a, b]⟩ ψ) = scaleRows x n := by
  funext i
  obtain ⟨p, q, rfl⟩ : ∃ (p : Fin a) (q : Fin b), i = ix2 p q := ⟨i 0, i 1, eq_ix2 i⟩
  rw [truncf_apply, mulf_apply, shapeCast_self, Keepdims.broadcastTo_a1_ab_apply]
  rfl

/-- The scaled block of a dense tile at (p, k): the block's entry times its row's factor. -/
theorem scaled_apply {a K : ℕ} {ψ : FTy} (x : FVec Ideal ⟨2, ![a, K]⟩ .f32) (n : FVec Ideal ⟨2, ![a, 1]⟩ .f32)
    (hx : (⟨2, ![a, K]⟩ : Shape).ShapeCasts ⟨2, ![a, K]⟩)
    (h1 : (⟨2, ![a, 1]⟩ : Shape).ShapeCasts ⟨2, ![a, 1]⟩) (h2 : (⟨2, ![a, 1]⟩ : Shape).Broadcasts ⟨2, ![a, K]⟩)
    (hlt : ψ.bits < FTy.bits .f32) (p : Fin a) (k : Fin K) :
    (truncf ψ (mulf (shapeCast ⟨2, ![a, K]⟩ x hx) (broadcastTo ⟨2, ![a, K]⟩ (shapeCast ⟨2, ![a, 1]⟩ n h1) h2)) hlt : FVec Ideal ⟨2, ![a, K]⟩ ψ) (ix2 p k)
      = x (ix2 p k) * n (ix2 p (0 : Fin 1)) := by
  rw [truncf_apply, mulf_apply, shapeCast_self, shapeCast_self, Keepdims.broadcastTo_a1_ab_apply]

/-- The dense tile: the scaled block, narrowed, times the narrowed weights into the zero accumulator, plus the bias
    row spread over the rows. -/
theorem dense_tile {a K C : ℕ} {ψ : FTy} (d : DotDims ⟨2, ![a, K]⟩ ⟨2, ![K, C]⟩ ⟨2, ![a, C]⟩) (hd : d = DotDims.plain a K C)
    (x : FVec Ideal ⟨2, ![a, K]⟩ .f32) (n : FVec Ideal ⟨2, ![a, 1]⟩ .f32) (W : FVec Ideal ⟨2, ![K, C]⟩ .f32)
    (b : FVec Ideal ⟨2, ![1, C]⟩ .f32)
    (hx : (⟨2, ![a, K]⟩ : Shape).ShapeCasts ⟨2, ![a, K]⟩)
    (h1 : (⟨2, ![a, 1]⟩ : Shape).ShapeCasts ⟨2, ![a, 1]⟩) (h2 : (⟨2, ![a, 1]⟩ : Shape).Broadcasts ⟨2, ![a, K]⟩)
    (hb1 : (⟨2, ![1, C]⟩ : Shape).ShapeCasts ⟨2, ![1, C]⟩) (hb2 : (⟨2, ![1, C]⟩ : Shape).Broadcasts ⟨2, ![a, C]⟩)
    (hlt : ψ.bits < FTy.bits .f32) :
    addf (FloatOps.matmul d none
          (truncf ψ (mulf (shapeCast ⟨2, ![a, K]⟩ x hx) (broadcastTo ⟨2, ![a, K]⟩ (shapeCast ⟨2, ![a, 1]⟩ n h1) h2)) hlt)
          (truncf ψ W hlt) (constant (F := Ideal) ⟨2, ![a, C]⟩ .f32 0x00000000#32))
        (broadcastTo ⟨2, ![a, C]⟩ (shapeCast ⟨2, ![1, C]⟩ b hb1) hb2)
      = denseRows x n W b := by
  subst hd
  funext i
  obtain ⟨p, q, rfl⟩ : ∃ (p : Fin a) (q : Fin C), i = ix2 p q := ⟨i 0, i 1, eq_ix2 i⟩
  rw [addf_apply, Ideal.matmul_constant_zero_apply, broadcastTo_1b_ab_apply, shapeCast_self b hb1]
  show _ = (∑ k : Fin K, (x (ix2 p k) * n (ix2 p (0 : Fin 1))) * W (ix2 k q)) + b (ix2 (0 : Fin 1) q)
  refine congrArg (· + b (ix2 (0 : Fin 1) q)) ?_
  refine (Cert.PlainDot.contraction_eq
    (truncf ψ (mulf (shapeCast ⟨2, ![a, K]⟩ x hx) (broadcastTo ⟨2, ![a, K]⟩ (shapeCast ⟨2, ![a, 1]⟩ n h1) h2)) hlt)
    (truncf ψ W hlt) p q).trans ?_
  refine Finset.sum_congr rfl fun k _ => ?_
  rw [scaled_apply, truncf_apply]

/-- The fused tile: the dense tile clamped at the zero word and multiplied by a second column, narrowed. -/
theorem fused_tile {a K C : ℕ} {ψ : FTy} (d : DotDims ⟨2, ![a, K]⟩ ⟨2, ![K, C]⟩ ⟨2, ![a, C]⟩) (hd : d = DotDims.plain a K C)
    (x : FVec Ideal ⟨2, ![a, K]⟩ .f32) (n : FVec Ideal ⟨2, ![a, 1]⟩ .f32) (W : FVec Ideal ⟨2, ![K, C]⟩ .f32)
    (b : FVec Ideal ⟨2, ![1, C]⟩ .f32) (n' : FVec Ideal ⟨2, ![a, 1]⟩ .f32)
    (hx : (⟨2, ![a, K]⟩ : Shape).ShapeCasts ⟨2, ![a, K]⟩)
    (h1 : (⟨2, ![a, 1]⟩ : Shape).ShapeCasts ⟨2, ![a, 1]⟩) (h2 : (⟨2, ![a, 1]⟩ : Shape).Broadcasts ⟨2, ![a, K]⟩)
    (hb1 : (⟨2, ![1, C]⟩ : Shape).ShapeCasts ⟨2, ![1, C]⟩) (hb2 : (⟨2, ![1, C]⟩ : Shape).Broadcasts ⟨2, ![a, C]⟩)
    (h2' : (⟨2, ![a, 1]⟩ : Shape).Broadcasts ⟨2, ![a, C]⟩)
    (hlt : ψ.bits < FTy.bits .f32) :
    (truncf ψ (mulf (maximumf
        (addf (FloatOps.matmul d none
          (truncf ψ (mulf (shapeCast ⟨2, ![a, K]⟩ x hx) (broadcastTo ⟨2, ![a, K]⟩ (shapeCast ⟨2, ![a, 1]⟩ n h1) h2)) hlt)
          (truncf ψ W hlt) (constant (F := Ideal) ⟨2, ![a, C]⟩ .f32 0x00000000#32))
        (broadcastTo ⟨2, ![a, C]⟩ (shapeCast ⟨2, ![1, C]⟩ b hb1) hb2))
        (broadcast ⟨2, ![a, C]⟩ (Scalar.ofBits (F := Ideal) .f32 0x00000000#32)))
        (broadcastTo ⟨2, ![a, C]⟩ (shapeCast ⟨2, ![a, 1]⟩ n' h1) h2')) hlt : FVec Ideal ⟨2, ![a, C]⟩ ψ)
      = fusedRows x n W b n' := by
  rw [dense_tile d hd x n W b hx h1 h2 hb1 hb2 hlt]
  funext i
  obtain ⟨p, q, rfl⟩ : ∃ (p : Fin a) (q : Fin C), i = ix2 p q := ⟨i 0, i 1, eq_ix2 i⟩
  rw [truncf_apply, mulf_apply, maximumf_apply, broadcast_apply, shapeCast_self, Keepdims.broadcastTo_a1_ab_apply]
  show max (denseRows x n W b (ix2 p q)) (Ideal.ofBits .f32 0x00000000#32) * n' (ix2 p (0 : Fin 1)) = _
  rw [Ideal.ofBits_zero_f32]
  rfl

/-! ## What the host's whole-array operations compute -/

/-- A vector spread along axis 0 into a column and then over the lanes: entry (p, q) is entry p. -/
theorem col_bcast_apply {α : Type} {a b : ℕ}
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (v : (⟨1, ![a]⟩ : Shape).Idx → α) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split_ifs with ha
      · subst ha; omega
      · rfl
    | ⟨1, _⟩ => simp [ix2])]
  rw [broadcastInDim_apply ![0] h1 v (ix2 p (0 : Fin 1)) (ix1 p) (fun ax => by
    match ax with
    | ⟨0, _⟩ =>
      show p.val = if a = 1 then 0 else p.val
      split_ifs with ha
      · subst ha; omega
      · rfl)]

/-- The host's row scaling by a vector spread to a column and over the lanes is the row scaling by that vector
    reshaped to a column. -/
theorem host_scale {a b : ℕ}
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (hc : (⟨1, ![a]⟩ : Shape).ShapeCasts ⟨2, ![a, 1]⟩)
    (x : FVec Ideal ⟨2, ![a, b]⟩ .f32) (v : FVec Ideal ⟨1, ![a]⟩ .f32) :
    mulf x (broadcastInDim ⟨2, ![a, b]⟩ ![0, 1] h2 (broadcastInDim ⟨2, ![a, 1]⟩ ![0] h1 v))
      = scaleRows x (shapeCast ⟨2, ![a, 1]⟩ v hc) := by
  funext i
  obtain ⟨p, q, rfl⟩ : ∃ (p : Fin a) (q : Fin b), i = ix2 p q := ⟨i 0, i 1, eq_ix2 i⟩
  rw [mulf_apply, col_bcast_apply]
  show x (ix2 p q) * v (ix1 p) = x (ix2 p q) * shapeCast ⟨2, ![a, 1]⟩ v hc (ix2 p (0 : Fin 1))
  rw [Keepdims.shapeCast_a_a1_apply]

/-- The host's dense stage — rows scaled by a spread vector, a plain product, a bias vector spread to a row and over
    the rows — is the dense stage with the vector a column and the bias a row. -/
theorem host_dense {a K C : ℕ} (d : DotDims ⟨2, ![a, K]⟩ ⟨2, ![K, C]⟩ ⟨2, ![a, C]⟩) (hd : d = DotDims.plain a K C)
    (h1 : (⟨1, ![a]⟩ : Shape).BroadcastsInDim ⟨2, ![a, 1]⟩ (![0] : Fin 1 → Fin 2))
    (h2 : (⟨2, ![a, 1]⟩ : Shape).BroadcastsInDim ⟨2, ![a, K]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![a, C]⟩ (![0, 1] : Fin 2 → Fin 2))
    (hc : (⟨1, ![a]⟩ : Shape).ShapeCasts ⟨2, ![a, 1]⟩) (hr : (⟨1, ![C]⟩ : Shape).ShapeCasts ⟨2, ![1, C]⟩)
    (x : FVec Ideal ⟨2, ![a, K]⟩ .f32) (v : FVec Ideal ⟨1, ![a]⟩ .f32) (W : FVec Ideal ⟨2, ![K, C]⟩ .f32) (b : FVec Ideal ⟨1, ![C]⟩ .f32) :
    addf (Host.dotGeneral d none (mulf x (broadcastInDim ⟨2, ![a, K]⟩ ![0, 1] h2 (broadcastInDim ⟨2, ![a, 1]⟩ ![0] h1 v))) W)
        (broadcastInDim ⟨2, ![a, C]⟩ ![0, 1] hb2 (broadcastInDim ⟨2, ![1, C]⟩ ![1] hb1 b))
      = denseRows x (shapeCast ⟨2, ![a, 1]⟩ v hc) W (shapeCast ⟨2, ![1, C]⟩ b hr) := by
  funext i
  obtain ⟨p, q, rfl⟩ : ∃ (p : Fin a) (q : Fin C), i = ix2 p q := ⟨i 0, i 1, eq_ix2 i⟩
  rw [HostLin.affine_apply d hd hb1 hb2]
  show _ = (∑ k : Fin K, (x (ix2 p k) * shapeCast ⟨2, ![a, 1]⟩ v hc (ix2 p (0 : Fin 1))) * W (ix2 k q))
      + shapeCast ⟨2, ![1, C]⟩ b hr (ix2 (0 : Fin 1) q)
  rw [HostLin.row_apply, Keepdims.shapeCast_a_a1_apply]
  refine congrArg (· + b (ix1 q)) (Finset.sum_congr rfl fun k _ => ?_)
  rw [mulf_apply, col_bcast_apply]

/-- The host's fused stage: the dense stage, the maximum with the zero scalar spread over the array, and a second
    row scaling by a spread vector. -/
theorem host_fused {a K C : ℕ} (d : DotDims ⟨2, ![a, K]⟩ ⟨2, ![K, C]⟩ ⟨2, ![a, C]⟩) (hd : d = DotDims.plain a K C)
    (h1 : (⟨1, ![a]⟩ : Shape).BroadcastsInDim ⟨2, ![a, 1]⟩ (![0] : Fin 1 → Fin 2))
    (h2 : (⟨2, ![a, 1]⟩ : Shape).BroadcastsInDim ⟨2, ![a, K]⟩ (![0, 1] : Fin 2 → Fin 2))
    (h2' : (⟨2, ![a, 1]⟩ : Shape).BroadcastsInDim ⟨2, ![a, C]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![a, C]⟩ (![0, 1] : Fin 2 → Fin 2))
    (h0 : (⟨0, ![]⟩ : Shape).BroadcastsInDim ⟨2, ![a, C]⟩ (![] : Fin 0 → Fin 2))
    (hc : (⟨1, ![a]⟩ : Shape).ShapeCasts ⟨2, ![a, 1]⟩) (hr : (⟨1, ![C]⟩ : Shape).ShapeCasts ⟨2, ![1, C]⟩)
    (x : FVec Ideal ⟨2, ![a, K]⟩ .f32) (v : FVec Ideal ⟨1, ![a]⟩ .f32) (W : FVec Ideal ⟨2, ![K, C]⟩ .f32) (b : FVec Ideal ⟨1, ![C]⟩ .f32)
    (v' : FVec Ideal ⟨1, ![a]⟩ .f32) :
    mulf (maximumf
        (addf (Host.dotGeneral d none (mulf x (broadcastInDim ⟨2, ![a, K]⟩ ![0, 1] h2 (broadcastInDim ⟨2, ![a, 1]⟩ ![0] h1 v))) W)
          (broadcastInDim ⟨2, ![a, C]⟩ ![0, 1] hb2 (broadcastInDim ⟨2, ![1, C]⟩ ![1] hb1 b)))
        (broadcastInDim ⟨2, ![a, C]⟩ ![] h0 (constant (F := Ideal) ⟨0, ![]⟩ .f32 0x00000000#32)))
      (broadcastInDim ⟨2, ![a, C]⟩ ![0, 1] h2' (broadcastInDim ⟨2, ![a, 1]⟩ ![0] h1 v'))
      = fusedRows x (shapeCast ⟨2, ![a, 1]⟩ v hc) W (shapeCast ⟨2, ![1, C]⟩ b hr) (shapeCast ⟨2, ![a, 1]⟩ v' hc) := by
  rw [host_dense d hd h1 h2 hb1 hb2 hc hr]
  funext i
  obtain ⟨p, q, rfl⟩ : ∃ (p : Fin a) (q : Fin C), i = ix2 p q := ⟨i 0, i 1, eq_ix2 i⟩
  rw [mulf_apply, maximumf_apply, HostLin.scalar_bcast_apply, constant_apply, col_bcast_apply, Ideal.ofBits_zero_f32]
  show _ = max _ 0 * shapeCast ⟨2, ![a, 1]⟩ v' hc (ix2 p (0 : Fin 1))
  rw [Keepdims.shapeCast_a_a1_apply]

end GcnTile

end
-- ==== Proof.LibGcnRows.lean ====
/-
  A block of rows of a row-wise stage is the stage of the blocks of rows.

  Entry (P, Q) of scaleRows, denseRows and fusedRows reads row P of the node array and of the factor columns, column
  Q of the weights and entry Q of the bias row. So if a tile's blocks hold, at the tile's row and column, what the
  whole arrays hold at row P and column Q, the stage of the blocks at the tile's entry is the stage of the whole arrays
  at (P, Q). The tile's entry is j and the array's is J; every hypothesis is stated at their coordinates.
-/
import proofs.«119130_j43009802502553_2_alg».proof.Proof.LibGcnTile

noncomputable section

namespace GcnTile

open Idealize.ShloMosaic Idealize.ShloMosaic.ValueIdx
open scoped BigOperators

theorem scaleRows_rows {a A b : ℕ} (xt : (⟨2, ![a, b]⟩ : Shape).Idx → EReal) (nt : (⟨2, ![a, 1]⟩ : Shape).Idx → EReal)
    (x : (⟨2, ![A, b]⟩ : Shape).Idx → EReal) (n : (⟨2, ![A, 1]⟩ : Shape).Idx → EReal)
    (j : (⟨2, ![a, b]⟩ : Shape).Idx) (J : (⟨2, ![A, b]⟩ : Shape).Idx)
    (hx : xt j = x J) (hn : nt (ix2 (j 0) (0 : Fin 1)) = n (ix2 (J 0) (0 : Fin 1))) :
    scaleRows xt nt j = scaleRows x n J := by
  unfold scaleRows
  rw [hx, hn]

theorem denseRows_rows {a A K C : ℕ} (xt : (⟨2, ![a, K]⟩ : Shape).Idx → EReal) (nt : (⟨2, ![a, 1]⟩ : Shape).Idx → EReal)
    (Wt : (⟨2, ![K, C]⟩ : Shape).Idx → EReal) (bt : (⟨2, ![1, C]⟩ : Shape).Idx → EReal)
    (x : (⟨2, ![A, K]⟩ : Shape).Idx → EReal) (n : (⟨2, ![A, 1]⟩ : Shape).Idx → EReal)
    (W : (⟨2, ![K, C]⟩ : Shape).Idx → EReal) (b : (⟨2, ![1, C]⟩ : Shape).Idx → EReal)
    (j : (⟨2, ![a, C]⟩ : Shape).Idx) (J : (⟨2, ![A, C]⟩ : Shape).Idx)
    (hx : ∀ k : Fin K, xt (ix2 (j 0) k) = x (ix2 (J 0) k)) (hn : nt (ix2 (j 0) (0 : Fin 1)) = n (ix2 (J 0) (0 : Fin 1)))
    (hW : ∀ k : Fin K, Wt (ix2 k (j 1)) = W (ix2 k (J 1))) (hb : bt (ix2 (0 : Fin 1) (j 1)) = b (ix2 (0 : Fin 1) (J 1))) :
    denseRows xt nt Wt bt j = denseRows x n W b J := by
  unfold denseRows
  rw [hn, hb]
  exact congrArg (· + b (ix2 (0 : Fin 1) (J 1))) (Finset.sum_congr rfl fun k _ => by rw [hx k, hW k])

theorem fusedRows_rows {a A K C : ℕ} (xt : (⟨2, ![a, K]⟩ : Shape).Idx → EReal) (nt : (⟨2, ![a, 1]⟩ : Shape).Idx → EReal)
    (Wt : (⟨2, ![K, C]⟩ : Shape).Idx → EReal) (bt : (⟨2, ![1, C]⟩ : Shape).Idx → EReal) (nt' : (⟨2, ![a, 1]⟩ : Shape).Idx → EReal)
    (x : (⟨2, ![A, K]⟩ : Shape).Idx → EReal) (n : (⟨2, ![A, 1]⟩ : Shape).Idx → EReal)
    (W : (⟨2, ![K, C]⟩ : Shape).Idx → EReal) (b : (⟨2, ![1, C]⟩ : Shape).Idx → EReal) (n' : (⟨2, ![A, 1]⟩ : Shape).Idx → EReal)
    (j : (⟨2, ![a, C]⟩ : Shape).Idx) (J : (⟨2, ![A, C]⟩ : Shape).Idx)
    (hx : ∀ k : Fin K, xt (ix2 (j 0) k) = x (ix2 (J 0) k)) (hn : nt (ix2 (j 0) (0 : Fin 1)) = n (ix2 (J 0) (0 : Fin 1)))
    (hW : ∀ k : Fin K, Wt (ix2 k (j 1)) = W (ix2 k (J 1))) (hb : bt (ix2 (0 : Fin 1) (j 1)) = b (ix2 (0 : Fin 1) (J 1)))
    (hn' : nt' (ix2 (j 0) (0 : Fin 1)) = n' (ix2 (J 0) (0 : Fin 1))) :
    fusedRows xt nt Wt bt nt' j = fusedRows x n W b n' J := by
  unfold fusedRows
  rw [denseRows_rows xt nt Wt bt x n W b j J hx hn hW hb, hn']

end GcnTile

end
-- ==== Proof.KScaleRegion.lean ====
/-
  The first layer's row scaling as one function of the arrays its region finds.

  The first region walks ten blocks of 5000 rows. At block t it loads rows 5000·t … 5000·t + 4999 of the node array and
  of the out-degree factor column and writes back each loaded row times its factor, narrowed to the shorter float
  format, which changes nothing on the extended reals. A row of the result reads the same row of its inputs only, and
  the ten blocks cover the 50000 rows, so after the region the output array is the row scaling of the whole arrays.
-/
import proofs.«119130_j43009802502553_2_alg».proof.Proof.Gen.KernelIdeal.Frame
import proofs.«119130_j43009802502553_2_alg».proof.Proof.LibGcnRows
import Idealize.ShloMosaic.Lib.Pipeline.Value

set_option maxRecDepth 16384

noncomputable section

namespace Cert.KernelIdeal.ScaleRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's stored value is the row scaling of its two loaded blocks. -/
theorem pay_eq (x0 : Vec Ideal S5000x64 .f32) (x1 : Vec Ideal S5000x1 .f32) :
    k0_pay1 x0 x1 = GcnTile.scaleRows x0 x1 := by
  unfold k0_pay1
  exact GcnTile.scale_tile x0 x1 _ _ _

/-- The block index maps, decided over the ten grid points: the row blocks of the node array and of the factor column
    move with the output's, and no block index leaves its range. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 9 ∧ win0_2.index t (1 : Fin 2) = 0 :=
  (by decide +kernel : ∀ t : Fin grid0.N, _)

/-- Every one of the ten row blocks is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-! Each input block read at an entry is the array the region finds, read at the entry's place in it. -/

theorem nodes_blk (c : Dev nD) (t : Fin cfg0.N) (x : S5000x64.Idx) (k : S50000x64.Idx)
    (hk0 : (k 0).val = win0_2.index t (0 : Fin 2) * 5000 + (x 0).val) (hk1 : (k 1).val = (x 1).val) :
    (iblk0 V c 0 t : Vec Ideal S5000x64 .f32) x = (V c main_arg0 : S50000x64.Idx → Elt Ideal .f32) k := by
  have hf := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * (x 0).val = (k 0).val; omega
  | ⟨1, _⟩ => show win0_0.index t (1 : Fin 2) * 64 + 1 * (x 1).val = (k 1).val; omega

theorem factor_blk (c : Dev nD) (t : Fin cfg0.N) (x : S5000x1.Idx) (k : S50000x1.Idx)
    (hk0 : (k 0).val = win0_2.index t (0 : Fin 2) * 5000 + (x 0).val) (hk1 : (k 1).val = (x 1).val) :
    (iblk0 V c 1 t : Vec Ideal S5000x1 .f32) x = (V c main_v13 : S50000x1.Idx → Elt Ideal .f32) k := by
  have hf := idx_facts t
  unfold iblk0
  rw [View.read_apply]
  show V c main_v13 _ = V c main_v13 _
  refine congrArg _ (funext fun a => Fin.ext ?_)
  match a with
  | ⟨0, _⟩ => show win0_1.index t (0 : Fin 2) * 5000 + 1 * (x 0).val = (k 0).val; omega
  | ⟨1, _⟩ => show win0_1.index t (1 : Fin 2) * 1 + 1 * (x 1).val = (k 1).val; omega

/-- What grid point t writes back is block t of the row scaling of the arrays the region finds. -/
theorem flushed_eq (c : Dev nD) (t : Fin cfg0.N) :
    (dat0 V c).flushed 2 t = ((cfg0.win 2).blk t).view.read (Elt Ideal)
      (GcnTile.scaleRows (V c main_arg0) (V c main_v13)) := by
  show (cfg0.win 2).cut (grid0.coords t) ((dat0 V c).after 2 t) = _
  rw [after0_2]
  unfold out0_2
  rw [View.canon_unit_zero hz]
  simp only [View.ld_unit_zero (S := S5000x64) hz, View.ld_unit_zero (S := S5000x1) hz]
  rw [pay_eq]
  have hf := idx_facts t
  funext j
  show GcnTile.scaleRows (iblk0 V c 0 t) (iblk0 V c 1 t) j
      = GcnTile.scaleRows (V c main_arg0) (V c main_v13) (((cfg0.win 2).blk t).view.emb j)
  have hJ0 : ((((cfg0.win 2).blk t).view.emb j) 0).val = win0_2.index t (0 : Fin 2) * 5000 + (j 0).val := by
    show win0_2.index t (0 : Fin 2) * 5000 + 1 * (j 0).val = _; omega
  have hJ1 : ((((cfg0.win 2).blk t).view.emb j) 1).val = (j 1).val := by
    show win0_2.index t (1 : Fin 2) * 64 + 1 * (j 1).val = _; omega
  exact GcnTile.scaleRows_rows (a := 5000) (A := 50000) (b := 64)
    (iblk0 V c 0 t) (iblk0 V c 1 t) (V c main_arg0) (V c main_v13) j (((cfg0.win 2).blk t).view.emb j)
    (nodes_blk V c t j (((cfg0.win 2).blk t).view.emb j) hJ0 hJ1)
    (factor_blk V c t (ix2 (j 0) (0 : Fin 1)) (ix2 ((((cfg0.win 2).blk t).view.emb j) 0) (0 : Fin 1)) hJ0 rfl)

/-- An entry of the output array is in grid point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v17).slice (win0_2.rect t)).set ↔ _
  rw [View.set_slice_whole, Rect.mem_set_unit]
  exact Iff.rfl

/-- Every entry of the output array is in the block of the grid point that walks its row's block of 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its output array is the row scaling of the arrays it found at its entry. -/
theorem final (c : Dev nD) :
    (dat0 V c).arrAt 2 cfg0.N = GcnTile.scaleRows (V c main_arg0) (V c main_v13) :=
  (dat0 V c).arrAt_eq_of_cover 2 _ (fun t _ => flushed_eq V c t) cover

end Cert.KernelIdeal.ScaleRegion

end
-- ==== Proof.KFusedRegion.lean ====
/-
  The first layer's dense stage, clamped and pre-scaled for the second layer, as one function of the arrays its region
  finds.

  The second region walks ten blocks of 5000 rows. At block t it loads rows 5000·t … 5000·t + 4999 of the aggregated
  array, of the in-degree factor column and of the out-degree factor column, all of the 64 × 64 weights and the bias
  row, and writes back the dense stage of those blocks, its maximum with zero, times the out-degree factor, narrowed
  to the shorter float format (nothing on the extended reals). A row of the result reads the same row of its inputs
  only, and the ten blocks cover the 50000 rows, so after the region the output array is that function of the whole
  arrays.
-/
import proofs.«119130_j43009802502553_2_alg».proof.Proof.Gen.KernelIdeal.Frame
import proofs.«119130_j43009802502553_2_alg».proof.Proof.LibGcnRows
import Idealize.ShloMosaic.Lib.Pipeline.Value

set_option maxRecDepth 16384

noncomputable section

namespace Cert.KernelIdeal.FusedRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's stored value is the fused stage of its five loaded blocks. -/
theorem pay_eq (x0 : Vec Ideal S5000x64 .f32) (x1 : Vec Ideal S5000x1 .f32) (x2 : Vec Ideal S64x64 .f32) (x3 : Vec Ideal S1x64 .f32)
    (x4 : Vec Ideal S5000x1 .f32) :
    k1_pay1 x0 x1 x2 x3 x4 = GcnTile.fusedRows x0 x1 x2 x3 x4 := by
  unfold k1_pay1
  exact GcnTile.fused_tile _ rfl x0 x1 x2 x3 x4 _ _ _ _ _ _ _

/-- The block index maps, decided over the ten grid points: the row blocks of the aggregated array and of the two factor
    columns move with the output's, the weights and the bias row stay, and no block index leaves its range. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = win1_5.index t (0 : Fin 2)
    ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some grid point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-! Each input block read at an entry is the array the region finds, read at the entry's place in it. -/

theorem agg_blk (c : Dev nD) (t : Fin cfg1.N) (x : S5000x64.Idx) (k : S50000x64.Idx)
    (hk0 : (k 0).val = win1_5.index t (0 : Fin 2) * 5000 + (x 0).val) (hk1 : (k 1).val = (x 1).val) :
    (iblk1 V c 0 t : Vec Ideal S5000x64 .f32) x = (V c main_v28 : S50000x64.Idx → Elt Ideal .f32) k := by
  have hf := idx_facts t
  unfold iblk1
  rw [View.read_apply]
  show V c main_v28 _ = V c main_v28 _
  refine congrArg _ (funext fun a => Fin.ext ?_)
  match a with
  | ⟨0, _⟩ => show win1_0.index t (0 : Fin 2) * 5000 + 1 * (x 0).val = (k 0).val; omega
  | ⟨1, _⟩ => show win1_0.index t (1 : Fin 2) * 64 + 1 * (x 1).val = (k 1).val; omega

theorem factor_blk (c : Dev nD) (t : Fin cfg1.N) (x : S5000x1.Idx) (k : S50000x1.Idx)
    (hk0 : (k 0).val = win1_5.index t (0 : Fin 2) * 5000 + (x 0).val) (hk1 : (k 1).val = (x 1).val) :
    (iblk1 V c 1 t : Vec Ideal S5000x1 .f32) x = (V c main_v14 : S50000x1.Idx → Elt Ideal .f32) k := by
  have hf := idx_facts t
  unfold iblk1
  rw [View.read_apply]
  show V c main_v14 _ = V c main_v14 _
  refine congrArg _ (funext fun a => Fin.ext ?_)
  match a with
  | ⟨0, _⟩ => show win1_1.index t (0 : Fin 2) * 5000 + 1 * (x 0).val = (k 0).val; omega
  | ⟨1, _⟩ => show win1_1.index t (1 : Fin 2) * 1 + 1 * (x 1).val = (k 1).val; omega

theorem weights_blk (c : Dev nD) (t : Fin cfg1.N) (x : S64x64.Idx) (k : S64x64.Idx)
    (hk0 : (k 0).val = (x 0).val) (hk1 : (k 1).val = (x 1).val) :
    (iblk1 V c 2 t : Vec Ideal S64x64 .f32) x = (V c main_arg3 : S64x64.Idx → Elt Ideal .f32) k := by
  have hf := idx_facts t
  unfold iblk1
  rw [View.read_apply]
  show V c main_arg3 _ = V c main_arg3 _
  refine congrArg _ (funext fun a => Fin.ext ?_)
  match a with
  | ⟨0, _⟩ => show win1_2.index t (0 : Fin 2) * 64 + 1 * (x 0).val = (k 0).val; omega
  | ⟨1, _⟩ => show win1_2.index t (1 : Fin 2) * 64 + 1 * (x 1).val = (k 1).val; omega

theorem bias_blk (c : Dev nD) (t : Fin cfg1.N) (x : S1x64.Idx) (k : S1x64.Idx)
    (hk0 : (k 0).val = (x 0).val) (hk1 : (k 1).val = (x 1).val) :
    (iblk1 V c 3 t : Vec Ideal S1x64 .f32) x = (V c main_v15 : S1x64.Idx → Elt Ideal .f32) k := by
  have hf := idx_facts t
  unfold iblk1
  rw [View.read_apply]
  show V c main_v15 _ = V c main_v15 _
  refine congrArg _ (funext fun a => Fin.ext ?_)
  match a with
  | ⟨0, _⟩ => show win1_3.index t (0 : Fin 2) * 1 + 1 * (x 0).val = (k 0).val; omega
  | ⟨1, _⟩ => show win1_3.index t (1 : Fin 2) * 64 + 1 * (x 1).val = (k 1).val; omega

theorem next_factor_blk (c : Dev nD) (t : Fin cfg1.N) (x : S5000x1.Idx) (k : S50000x1.Idx)
    (hk0 : (k 0).val = win1_5.index t (0 : Fin 2) * 5000 + (x 0).val) (hk1 : (k 1).val = (x 1).val) :
    (iblk1 V c 4 t : Vec Ideal S5000x1 .f32) x = (V c main_v13 : S50000x1.Idx → Elt Ideal .f32) k := by
  have hf := idx_facts t
  unfold iblk1
  rw [View.read_apply]
  show V c main_v13 _ = V c main_v13 _
  refine congrArg _ (funext fun a => Fin.ext ?_)
  match a with
  | ⟨0, _⟩ => show win1_4.index t (0 : Fin 2) * 5000 + 1 * (x 0).val = (k 0).val; omega
  | ⟨1, _⟩ => show win1_4.index t (1 : Fin 2) * 1 + 1 * (x 1).val = (k 1).val; omega

/-- What grid point t writes back is block t of the fused stage of the arrays the region finds. -/
theorem flushed_eq (c : Dev nD) (t : Fin cfg1.N) :
    (dat1 V c).flushed 5 t = ((cfg1.win 5).blk t).view.read (Elt Ideal)
      (GcnTile.fusedRows (V c main_v28) (V c main_v14) (V c main_arg3) (V c main_v15) (V c main_v13)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S64x64) hz,
    View.ld_unit_zero (S := S1x64) hz]
  rw [pay_eq]
  have hf := idx_facts t
  funext j
  show GcnTile.fusedRows (iblk1 V c 0 t) (iblk1 V c 1 t) (iblk1 V c 2 t) (iblk1 V c 3 t) (iblk1 V c 4 t) j
      = GcnTile.fusedRows (V c main_v28) (V c main_v14) (V c main_arg3) (V c main_v15) (V c main_v13) (((cfg1.win 5).blk t).view.emb j)
  have hJ0 : ((((cfg1.win 5).blk t).view.emb j) 0).val = win1_5.index t (0 : Fin 2) * 5000 + (j 0).val := by
    show win1_5.index t (0 : Fin 2) * 5000 + 1 * (j 0).val = _; omega
  have hJ1 : ((((cfg1.win 5).blk t).view.emb j) 1).val = (j 1).val := by
    show win1_5.index t (1 : Fin 2) * 64 + 1 * (j 1).val = _; omega
  exact GcnTile.fusedRows_rows (a := 5000) (A := 50000) (K := 64) (C := 64)
    (iblk1 V c 0 t) (iblk1 V c 1 t) (iblk1 V c 2 t) (iblk1 V c 3 t) (iblk1 V c 4 t)
    (V c main_v28) (V c main_v14) (V c main_arg3) (V c main_v15) (V c main_v13) j (((cfg1.win 5).blk t).view.emb j)
    (fun k => agg_blk V c t (ix2 (j 0) k) (ix2 ((((cfg1.win 5).blk t).view.emb j) 0) k) hJ0 rfl)
    (factor_blk V c t (ix2 (j 0) (0 : Fin 1)) (ix2 ((((cfg1.win 5).blk t).view.emb j) 0) (0 : Fin 1)) hJ0 rfl)
    (fun k => weights_blk V c t (ix2 k (j 1)) (ix2 k ((((cfg1.win 5).blk t).view.emb j) 1)) rfl hJ1)
    (bias_blk V c t (ix2 (0 : Fin 1) (j 1)) (ix2 (0 : Fin 1) ((((cfg1.win 5).blk t).view.emb j) 1)) rfl hJ1)
    (next_factor_blk V c t (ix2 (j 0) (0 : Fin 1)) (ix2 ((((cfg1.win 5).blk t).view.emb j) 0) (0 : Fin 1)) hJ0 rfl)

/-- An entry of the output array is in grid point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v29).slice (win1_5.rect t)).set ↔ _
  rw [View.set_slice_whole, Rect.mem_set_unit]
  exact Iff.rfl

/-- Every entry of the output array is in the block of the grid point that walks its row's block of 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the region its output array is the fused stage of the arrays it found at its entry. -/
theorem final (c : Dev nD) :
    (dat1 V c).arrAt 5 cfg1.N = GcnTile.fusedRows (V c main_v28) (V c main_v14) (V c main_arg3) (V c main_v15) (V c main_v13) :=
  (dat1 V c).arrAt_eq_of_cover 5 _ (fun t _ => flushed_eq V c t) cover

end Cert.KernelIdeal.FusedRegion

end
-- ==== Proof.KDenseRegion.lean ====
/-
  The second layer's dense stage as one function of the arrays its region finds.

  The third region walks ten blocks of 5000 rows. At block t it loads rows 5000·t … 5000·t + 4999 of the aggregated
  array and of the in-degree factor column, all of the 64 × 64 weights and the bias row, and writes back the dense
  stage of those blocks. A row of the dense stage reads the same row of its inputs only, so what block t writes back
  is rows 5000·t … of the dense stage of the whole arrays; the ten blocks cover the 50000 rows, so after the region
  the output array is the dense stage of the whole arrays. The arrays are whatever the region finds at its entry.
-/
import proofs.«119130_j43009802502553_2_alg».proof.Proof.Gen.KernelIdeal.Frame
import proofs.«119130_j43009802502553_2_alg».proof.Proof.LibGcnRows
import Idealize.ShloMosaic.Lib.Pipeline.Value

set_option maxRecDepth 16384

noncomputable section

namespace Cert.KernelIdeal.DenseRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's stored value is the dense stage of its four loaded blocks. -/
theorem pay_eq (x0 : Vec Ideal S5000x64 .f32) (x1 : Vec Ideal S5000x1 .f32) (x2 : Vec Ideal S64x64 .f32) (x3 : Vec Ideal S1x64 .f32) :
    k2_pay1 x0 x1 x2 x3 = GcnTile.denseRows x0 x1 x2 x3 := by
  unfold k2_pay1
  exact GcnTile.dense_tile _ rfl x0 x1 x2 x3 _ _ _ _ _ _

/-- The block index maps, decided over the ten grid points: the row blocks of the aggregated array and of the factor
    column move with the output's, the weights and the bias row stay, and no block index leaves its range. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) ≤ 9 ∧ win2_4.index t (1 : Fin 2) = 0 :=
  (by decide +kernel : ∀ t : Fin grid2.N, _)

/-- Every one of the ten row blocks is some grid point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-! Each input block read at an entry is the array the region finds, read at the entry's place in it. -/

theorem agg_blk (c : Dev nD) (t : Fin cfg2.N) (x : S5000x64.Idx) (k : S50000x64.Idx)
    (hk0 : (k 0).val = win2_4.index t (0 : Fin 2) * 5000 + (x 0).val) (hk1 : (k 1).val = (x 1).val) :
    (iblk2 V c 0 t : Vec Ideal S5000x64 .f32) x = (V c main_v40 : S50000x64.Idx → Elt Ideal .f32) k := by
  have hf := idx_facts t
  unfold iblk2
  rw [View.read_apply]
  show V c main_v40 _ = V c main_v40 _
  refine congrArg _ (funext fun a => Fin.ext ?_)
  match a with
  | ⟨0, _⟩ => show win2_0.index t (0 : Fin 2) * 5000 + 1 * (x 0).val = (k 0).val; omega
  | ⟨1, _⟩ => show win2_0.index t (1 : Fin 2) * 64 + 1 * (x 1).val = (k 1).val; omega

theorem factor_blk (c : Dev nD) (t : Fin cfg2.N) (x : S5000x1.Idx) (k : S50000x1.Idx)
    (hk0 : (k 0).val = win2_4.index t (0 : Fin 2) * 5000 + (x 0).val) (hk1 : (k 1).val = (x 1).val) :
    (iblk2 V c 1 t : Vec Ideal S5000x1 .f32) x = (V c main_v14 : S50000x1.Idx → Elt Ideal .f32) k := by
  have hf := idx_facts t
  unfold iblk2
  rw [View.read_apply]
  show V c main_v14 _ = V c main_v14 _
  refine congrArg _ (funext fun a => Fin.ext ?_)
  match a with
  | ⟨0, _⟩ => show win2_1.index t (0 : Fin 2) * 5000 + 1 * (x 0).val = (k 0).val; omega
  | ⟨1, _⟩ => show win2_1.index t (1 : Fin 2) * 1 + 1 * (x 1).val = (k 1).val; omega

theorem weights_blk (c : Dev nD) (t : Fin cfg2.N) (x : S64x64.Idx) (k : S64x64.Idx)
    (hk0 : (k 0).val = (x 0).val) (hk1 : (k 1).val = (x 1).val) :
    (iblk2 V c 2 t : Vec Ideal S64x64 .f32) x = (V c main_arg5 : S64x64.Idx → Elt Ideal .f32) k := by
  have hf := idx_facts t
  unfold iblk2
  rw [View.read_apply]
  show V c main_arg5 _ = V c main_arg5 _
  refine congrArg _ (funext fun a => Fin.ext ?_)
  match a with
  | ⟨0, _⟩ => show win2_2.index t (0 : Fin 2) * 64 + 1 * (x 0).val = (k 0).val; omega
  | ⟨1, _⟩ => show win2_2.index t (1 : Fin 2) * 64 + 1 * (x 1).val = (k 1).val; omega

theorem bias_blk (c : Dev nD) (t : Fin cfg2.N) (x : S1x64.Idx) (k : S1x64.Idx)
    (hk0 : (k 0).val = (x 0).val) (hk1 : (k 1).val = (x 1).val) :
    (iblk2 V c 3 t : Vec Ideal S1x64 .f32) x = (V c main_v16 : S1x64.Idx → Elt Ideal .f32) k := by
  have hf := idx_facts t
  unfold iblk2
  rw [View.read_apply]
  show V c main_v16 _ = V c main_v16 _
  refine congrArg _ (funext fun a => Fin.ext ?_)
  match a with
  | ⟨0, _⟩ => show win2_3.index t (0 : Fin 2) * 1 + 1 * (x 0).val = (k 0).val; omega
  | ⟨1, _⟩ => show win2_3.index t (1 : Fin 2) * 64 + 1 * (x 1).val = (k 1).val; omega

/-- What grid point t writes back is block t of the dense stage of the arrays the region finds. -/
theorem flushed_eq (c : Dev nD) (t : Fin cfg2.N) :
    (dat2 V c).flushed 4 t = ((cfg2.win 4).blk t).view.read (Elt Ideal)
      (GcnTile.denseRows (V c main_v40) (V c main_v14) (V c main_arg5) (V c main_v16)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S64x64) hz,
    View.ld_unit_zero (S := S1x64) hz]
  rw [pay_eq]
  have hf := idx_facts t
  funext j
  show GcnTile.denseRows (iblk2 V c 0 t) (iblk2 V c 1 t) (iblk2 V c 2 t) (iblk2 V c 3 t) j
      = GcnTile.denseRows (V c main_v40) (V c main_v14) (V c main_arg5) (V c main_v16) (((cfg2.win 4).blk t).view.emb j)
  have hJ0 : ((((cfg2.win 4).blk t).view.emb j) 0).val = win2_4.index t (0 : Fin 2) * 5000 + (j 0).val := by
    show win2_4.index t (0 : Fin 2) * 5000 + 1 * (j 0).val = _; omega
  have hJ1 : ((((cfg2.win 4).blk t).view.emb j) 1).val = (j 1).val := by
    show win2_4.index t (1 : Fin 2) * 64 + 1 * (j 1).val = _; omega
  exact GcnTile.denseRows_rows (a := 5000) (A := 50000) (K := 64) (C := 64)
    (iblk2 V c 0 t) (iblk2 V c 1 t) (iblk2 V c 2 t) (iblk2 V c 3 t)
    (V c main_v40) (V c main_v14) (V c main_arg5) (V c main_v16) j (((cfg2.win 4).blk t).view.emb j)
    (fun k => agg_blk V c t (ix2 (j 0) k) (ix2 ((((cfg2.win 4).blk t).view.emb j) 0) k) hJ0 rfl)
    (factor_blk V c t (ix2 (j 0) (0 : Fin 1)) (ix2 ((((cfg2.win 4).blk t).view.emb j) 0) (0 : Fin 1)) hJ0 rfl)
    (fun k => weights_blk V c t (ix2 k (j 1)) (ix2 k ((((cfg2.win 4).blk t).view.emb j) 1)) rfl hJ1)
    (bias_blk V c t (ix2 (0 : Fin 1) (j 1)) (ix2 (0 : Fin 1) ((((cfg2.win 4).blk t).view.emb j) 1)) rfl hJ1)

/-- An entry of the output array is in grid point t's block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v41).slice (win2_4.rect t)).set ↔ _
  rw [View.set_slice_whole, Rect.mem_set_unit]
  exact Iff.rfl

/-- Every entry of the output array is in the block of the grid point that walks its row's block of 5000. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := idx_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- After the region its output array is the dense stage of the arrays it found at its entry. -/
theorem final (c : Dev nD) :
    (dat2 V c).arrAt 4 cfg2.N = GcnTile.denseRows (V c main_v40) (V c main_v14) (V c main_arg5) (V c main_v16) :=
  (dat2 V c).arrAt_eq_of_cover 4 _ (fun t _ => flushed_eq V c t) cover

end Cert.KernelIdeal.DenseRegion

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.KStages.lean ====
/-
  The kernel program's buffers at each boundary between its host stretches and its regions.

  The program computes, in order: the two degree factors (for an index array, a count of its occurrences of each node by an
  accumulating scatter of ones, clamped below at 1, raised to the power −1/2), kept as [50000, 1] columns; the two bias
  vectors as [1, 64] rows; region one, the node rows times the out-degree factor; the sum along the edges of the rows
  gathered at the edges' sources (negative indices moved up by 50000), scattered with accumulation to the edges' targets;
  region two, the dense stage of layer one, clamped at zero, times the out-degree factor; the sum along the edges again;
  region three, the dense stage of layer two. Each value is named here as a function of the seven argument arrays, and each
  buffer that a later step reads is shown to hold its named value at every boundary up to that step: a host stretch is
  read as the composed term of its operations, a region's output array by the region's closed form, and a buffer that a
  step does not write keeps what it held.
-/
import proofs.«119130_j43009802502553_2_alg».proof.Proof.Gen.KernelIdeal.Frame
import proofs.«119130_j43009802502553_2_alg».proof.Proof.KScaleRegion
import proofs.«119130_j43009802502553_2_alg».proof.Proof.KFusedRegion
import proofs.«119130_j43009802502553_2_alg».proof.Proof.KDenseRegion
import proofs.«119130_j43009802502553_2_alg».proof.Proof.LibHostRead
import proofs.«119130_j43009802502553_2_alg».proof.Proof.LibKeep

set_option maxRecDepth 16384

noncomputable section

namespace Cert.KernelIdeal.Stages

open Cert.KernelIdeal Cert.KernelIdeal.Gen
open Idealize.ShloMosaic Idealize.ShloMosaic.TcCoe Idealize.ShloMosaic.StableHlo Idealize.ShloMosaic.ValueIdx Idealize.SL.Sem
open Idealize.ShloMosaic.Pipeline (Dat Cfg Window)
open Cert.HostRead Cert.Keep

/-! ## The stages as functions -/

/-- The degree factor of an index array: occurrences counted by an accumulating scatter of ones into zeros, the maximum
    with 1, the power −1/2. -/
def degNorm (idx : (⟨S800000, .i32⟩ : BufTy).Contents (Elt Ideal)) : (⟨S50000, .f32⟩ : BufTy).Contents (Elt Ideal) :=
  Host.powf (maximumf (broadcastInDim S50000 ![] bcast_S_S50000 (id (constant (F := Ideal) S_ .f32 0x3F800000#32)))
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32))))
    (broadcastInDim S50000 ![] bcast_S_S50000 (constant (F := Ideal) S_ .f32 0xBF000000#32))

/-- The sum along the edges: rows of h gathered at the sources (a negative index moved up by 50000), accumulated into
    zeros at the targets. -/
def edgeSum (h : S50000x64.Idx → EReal) (src dst : (⟨S800000, .i32⟩ : BufTy).Contents (Elt Ideal)) : S50000x64.Idx → EReal :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A vector of 50000 as a [50000, 1] column; a vector of 64 as a [1, 64] row. -/
def colOf (v : (⟨S50000, .f32⟩ : BufTy).Contents (Elt Ideal)) : S50000x1.Idx → EReal := shapeCast S50000x1 v shapeCasts_S50000_S50000x1
def rowOf (b : (⟨S64, .f32⟩ : BufTy).Contents (Elt Ideal)) : S1x64.Idx → EReal := shapeCast S1x64 b shapeCasts_S64_S1x64

/-- The two layers as one function of the seven argument arrays. -/
def result (x : S50000x64.Idx → EReal) (src dst : (⟨S800000, .i32⟩ : BufTy).Contents (Elt Ideal))
    (W1 : S64x64.Idx → EReal) (b1 : (⟨S64, .f32⟩ : BufTy).Contents (Elt Ideal))
    (W2 : S64x64.Idx → EReal) (b2 : (⟨S64, .f32⟩ : BufTy).Contents (Elt Ideal)) : S50000x64.Idx → EReal :=
  GcnTile.denseRows
    (edgeSum (GcnTile.fusedRows (edgeSum (GcnTile.scaleRows x (colOf (degNorm src))) src dst)
      (colOf (degNorm dst)) W1 (rowOf b1) (colOf (degNorm src))) src dst)
    (colOf (degNorm dst)) W2 (rowOf b2)

variable (m : (ℓ : Loc nD τ sig) → Buf (Elt Ideal) ℓ) (ρ : Dev nD → PrngReg)

/-! ## The named values on a device -/

def outFactor (c : Dev nD) : S50000x1.Idx → EReal := colOf (degNorm (m ((c : Thread nD τ).loc main_arg1)))
def inFactor (c : Dev nD) : S50000x1.Idx → EReal := colOf (degNorm (m ((c : Thread nD τ).loc main_arg2)))
def biasRow1 (c : Dev nD) : S1x64.Idx → EReal := rowOf (m ((c : Thread nD τ).loc main_arg4))
def biasRow2 (c : Dev nD) : S1x64.Idx → EReal := rowOf (m ((c : Thread nD τ).loc main_arg6))
def scaled (c : Dev nD) : S50000x64.Idx → EReal := GcnTile.scaleRows (m ((c : Thread nD τ).loc main_arg0)) (outFactor m c)
def summed1 (c : Dev nD) : S50000x64.Idx → EReal := edgeSum (scaled m c) (m ((c : Thread nD τ).loc main_arg1)) (m ((c : Thread nD τ).loc main_arg2))
def hidden (c : Dev nD) : S50000x64.Idx → EReal := GcnTile.fusedRows (summed1 m c) (inFactor m c) (m ((c : Thread nD τ).loc main_arg3)) (biasRow1 m c) (outFactor m c)
def summed2 (c : Dev nD) : S50000x64.Idx → EReal := edgeSum (hidden m c) (m ((c : Thread nD τ).loc main_arg1)) (m ((c : Thread nD τ).loc main_arg2))
def output (c : Dev nD) : S50000x64.Idx → EReal := GcnTile.denseRows (summed2 m c) (inFactor m c) (m ((c : Thread nD τ).loc main_arg5)) (biasRow2 m c)

theorem output_eq (c : Dev nD) :
    output m c = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rfl

/-! ## Before region one: five host stretches from the launch memory -/

theorem at5_arg0 (c : Dev nD) : V5 m ρ c main_arg0 = (m ((c : Thread nD τ).loc main_arg0)) := by
  show W5 m ρ c (Proc.devRef .tc main_arg0) = _
  (read_results) <;> rfl

theorem at5_arg1 (c : Dev nD) : V5 m ρ c main_arg1 = (m ((c : Thread nD τ).loc main_arg1)) := by
  show W5 m ρ c (Proc.devRef .tc main_arg1) = _
  (read_results) <;> rfl

theorem at5_arg2 (c : Dev nD) : V5 m ρ c main_arg2 = (m ((c : Thread nD τ).loc main_arg2)) := by
  show W5 m ρ c (Proc.devRef .tc main_arg2) = _
  (read_results) <;> rfl

theorem at5_arg3 (c : Dev nD) : V5 m ρ c main_arg3 = (m ((c : Thread nD τ).loc main_arg3)) := by
  show W5 m ρ c (Proc.devRef .tc main_arg3) = _
  (read_results) <;> rfl

theorem at5_arg5 (c : Dev nD) : V5 m ρ c main_arg5 = (m ((c : Thread nD τ).loc main_arg5)) := by
  show W5 m ρ c (Proc.devRef .tc main_arg5) = _
  (read_results) <;> rfl

theorem at5_v13 (c : Dev nD) : V5 m ρ c main_v13 = (outFactor m c) := by
  show W5 m ρ c (Proc.devRef .tc main_v13) = _
  (read_results) <;> rfl

theorem at5_v14 (c : Dev nD) : V5 m ρ c main_v14 = (inFactor m c) := by
  show W5 m ρ c (Proc.devRef .tc main_v14) = _
  (read_results) <;> rfl

theorem at5_v15 (c : Dev nD) : V5 m ρ c main_v15 = (biasRow1 m c) := by
  show W5 m ρ c (Proc.devRef .tc main_v15) = _
  (read_results) <;> rfl

theorem at5_v16 (c : Dev nD) : V5 m ρ c main_v16 = (biasRow2 m c) := by
  show W5 m ρ c (Proc.devRef .tc main_v16) = _
  (read_results) <;> rfl

/-! ## Region one -/

/-- Region one writes only its output array: every other buffer leaves it as it entered. -/
theorem keep_region1 (c : Dev nD) (b : Ref sig .tc) (hb : b ≠ main_v17) : V6 m ρ c b = V5 m ρ c b := by
  by_cases h0 : b = main_arg0
  · subst h0; exact (W6_arr m ρ c 0).trans (((dat0 (V5 m ρ) c).arrAt_in 0 rfl _).trans (A_eq0 (V5 m ρ) c 0))
  by_cases h1 : b = main_v13
  · subst h1; exact (W6_arr m ρ c 1).trans (((dat0 (V5 m ρ) c).arrAt_in 1 rfl _).trans (A_eq0 (V5 m ρ) c 1))
  exact W6_of_ne m ρ c b fun w => match w with
    | ⟨0, _⟩ => fun e => h0 e.symm
    | ⟨1, _⟩ => fun e => h1 e.symm
    | ⟨2, _⟩ => fun e => hb e.symm

theorem at6_v17 (c : Dev nD) : V6 m ρ c main_v17 = scaled m c :=
  (W6_arr m ρ c 2).trans ((Cert.KernelIdeal.ScaleRegion.final (V5 m ρ) c).trans (by rw [at5_arg0 m ρ c, at5_v13 m ρ c]; rfl))
theorem at6_arg1 (c : Dev nD) : V6 m ρ c main_arg1 = (m ((c : Thread nD τ).loc main_arg1)) := (keep_region1 m ρ c main_arg1 (by decide)).trans (at5_arg1 m ρ c)
theorem at6_arg2 (c : Dev nD) : V6 m ρ c main_arg2 = (m ((c : Thread nD τ).loc main_arg2)) := (keep_region1 m ρ c main_arg2 (by decide)).trans (at5_arg2 m ρ c)
theorem at6_arg3 (c : Dev nD) : V6 m ρ c main_arg3 = (m ((c : Thread nD τ).loc main_arg3)) := (keep_region1 m ρ c main_arg3 (by decide)).trans (at5_arg3 m ρ c)
theorem at6_arg5 (c : Dev nD) : V6 m ρ c main_arg5 = (m ((c : Thread nD τ).loc main_arg5)) := (keep_region1 m ρ c main_arg5 (by decide)).trans (at5_arg5 m ρ c)
theorem at6_v13 (c : Dev nD) : V6 m ρ c main_v13 = (outFactor m c) := (keep_region1 m ρ c main_v13 (by decide)).trans (at5_v13 m ρ c)
theorem at6_v14 (c : Dev nD) : V6 m ρ c main_v14 = (inFactor m c) := (keep_region1 m ρ c main_v14 (by decide)).trans (at5_v14 m ρ c)
theorem at6_v15 (c : Dev nD) : V6 m ρ c main_v15 = (biasRow1 m c) := (keep_region1 m ρ c main_v15 (by decide)).trans (at5_v15 m ρ c)
theorem at6_v16 (c : Dev nD) : V6 m ρ c main_v16 = (biasRow2 m c) := (keep_region1 m ρ c main_v16 (by decide)).trans (at5_v16 m ρ c)

/-! ## The first sum along the edges -/

theorem read_summed1 (X : Valuation τ sig (Elt Ideal)) :
    StableHlo.after hostOps1 X (Proc.devRef .tc main_v28)
      = edgeSum (X (Proc.devRef .tc main_v17)) (X (Proc.devRef .tc main_arg1)) (X (Proc.devRef .tc main_arg2)) := by
  read_results
  rfl
theorem keep1_arg1 (X : Valuation τ sig (Elt Ideal)) : StableHlo.after hostOps1 X (Proc.devRef .tc main_arg1) = X (Proc.devRef .tc main_arg1) := by keeps hostOps1
theorem keep1_arg2 (X : Valuation τ sig (Elt Ideal)) : StableHlo.after hostOps1 X (Proc.devRef .tc main_arg2) = X (Proc.devRef .tc main_arg2) := by keeps hostOps1
theorem keep1_arg3 (X : Valuation τ sig (Elt Ideal)) : StableHlo.after hostOps1 X (Proc.devRef .tc main_arg3) = X (Proc.devRef .tc main_arg3) := by keeps hostOps1
theorem keep1_arg5 (X : Valuation τ sig (Elt Ideal)) : StableHlo.after hostOps1 X (Proc.devRef .tc main_arg5) = X (Proc.devRef .tc main_arg5) := by keeps hostOps1
theorem keep1_v13 (X : Valuation τ sig (Elt Ideal)) : StableHlo.after hostOps1 X (Proc.devRef .tc main_v13) = X (Proc.devRef .tc main_v13) := by keeps hostOps1
theorem keep1_v14 (X : Valuation τ sig (Elt Ideal)) : StableHlo.after hostOps1 X (Proc.devRef .tc main_v14) = X (Proc.devRef .tc main_v14) := by keeps hostOps1
theorem keep1_v15 (X : Valuation τ sig (Elt Ideal)) : StableHlo.after hostOps1 X (Proc.devRef .tc main_v15) = X (Proc.devRef .tc main_v15) := by keeps hostOps1
theorem keep1_v16 (X : Valuation τ sig (Elt Ideal)) : StableHlo.after hostOps1 X (Proc.devRef .tc main_v16) = X (Proc.devRef .tc main_v16) := by keeps hostOps1

theorem at7_v28 (c : Dev nD) : V7 m ρ c main_v28 = summed1 m c := by
  show StableHlo.after hostOps1 (W6 m ρ c) (Proc.devRef .tc main_v28) = _
  rw [read_summed1]
  show edgeSum (V6 m ρ c main_v17) (V6 m ρ c main_arg1) (V6 m ρ c main_arg2) = _
  rw [at6_v17 m ρ c, at6_arg1 m ρ c, at6_arg2 m ρ c]
  rfl
theorem at7_arg1 (c : Dev nD) : V7 m ρ c main_arg1 = (m ((c : Thread nD τ).loc main_arg1)) := (keep1_arg1 (W6 m ρ c)).trans (at6_arg1 m ρ c)
theorem at7_arg2 (c : Dev nD) : V7 m ρ c main_arg2 = (m ((c : Thread nD τ).loc main_arg2)) := (keep1_arg2 (W6 m ρ c)).trans (at6_arg2 m ρ c)
theorem at7_arg3 (c : Dev nD) : V7 m ρ c main_arg3 = (m ((c : Thread nD τ).loc main_arg3)) := (keep1_arg3 (W6 m ρ c)).trans (at6_arg3 m ρ c)
theorem at7_arg5 (c : Dev nD) : V7 m ρ c main_arg5 = (m ((c : Thread nD τ).loc main_arg5)) := (keep1_arg5 (W6 m ρ c)).trans (at6_arg5 m ρ c)
theorem at7_v13 (c : Dev nD) : V7 m ρ c main_v13 = (outFactor m c) := (keep1_v13 (W6 m ρ c)).trans (at6_v13 m ρ c)
theorem at7_v14 (c : Dev nD) : V7 m ρ c main_v14 = (inFactor m c) := (keep1_v14 (W6 m ρ c)).trans (at6_v14 m ρ c)
theorem at7_v15 (c : Dev nD) : V7 m ρ c main_v15 = (biasRow1 m c) := (keep1_v15 (W6 m ρ c)).trans (at6_v15 m ρ c)
theorem at7_v16 (c : Dev nD) : V7 m ρ c main_v16 = (biasRow2 m c) := (keep1_v16 (W6 m ρ c)).trans (at6_v16 m ρ c)

/-! ## Region two -/

/-- Region two writes only its output array. -/
theorem keep_region2 (c : Dev nD) (b : Ref sig .tc) (hb : b ≠ main_v29) : V8 m ρ c b = V7 m ρ c b := by
  by_cases h0 : b = main_v28
  · subst h0; exact (W8_arr m ρ c 0).trans (((dat1 (V7 m ρ) c).arrAt_in 0 rfl _).trans (A_eq1 (V7 m ρ) c 0))
  by_cases h1 : b = main_v14
  · subst h1; exact (W8_arr m ρ c 1).trans (((dat1 (V7 m ρ) c).arrAt_in 1 rfl _).trans (A_eq1 (V7 m ρ) c 1))
  by_cases h2 : b = main_arg3
  · subst h2; exact (W8_arr m ρ c 2).trans (((dat1 (V7 m ρ) c).arrAt_in 2 rfl _).trans (A_eq1 (V7 m ρ) c 2))
  by_cases h3 : b = main_v15
  · subst h3; exact (W8_arr m ρ c 3).trans (((dat1 (V7 m ρ) c).arrAt_in 3 rfl _).trans (A_eq1 (V7 m ρ) c 3))
  by_cases h4 : b = main_v13
  · subst h4; exact (W8_arr m ρ c 4).trans (((dat1 (V7 m ρ) c).arrAt_in 4 rfl _).trans (A_eq1 (V7 m ρ) c 4))
  exact W8_of_ne m ρ c b fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => hb e.symm

theorem at8_v29 (c : Dev nD) : V8 m ρ c main_v29 = hidden m c :=
  (W8_arr m ρ c 5).trans ((Cert.KernelIdeal.FusedRegion.final (V7 m ρ) c).trans (by
    rw [at7_v28 m ρ c, at7_v14 m ρ c, at7_arg3 m ρ c, at7_v15 m ρ c, at7_v13 m ρ c]; rfl))
theorem at8_arg1 (c : Dev nD) : V8 m ρ c main_arg1 = (m ((c : Thread nD τ).loc main_arg1)) := (keep_region2 m ρ c main_arg1 (by decide)).trans (at7_arg1 m ρ c)
theorem at8_arg2 (c : Dev nD) : V8 m ρ c main_arg2 = (m ((c : Thread nD τ).loc main_arg2)) := (keep_region2 m ρ c main_arg2 (by decide)).trans (at7_arg2 m ρ c)
theorem at8_arg5 (c : Dev nD) : V8 m ρ c main_arg5 = (m ((c : Thread nD τ).loc main_arg5)) := (keep_region2 m ρ c main_arg5 (by decide)).trans (at7_arg5 m ρ c)
theorem at8_v14 (c : Dev nD) : V8 m ρ c main_v14 = (inFactor m c) := (keep_region2 m ρ c main_v14 (by decide)).trans (at7_v14 m ρ c)
theorem at8_v16 (c : Dev nD) : V8 m ρ c main_v16 = (biasRow2 m c) := (keep_region2 m ρ c main_v16 (by decide)).trans (at7_v16 m ρ c)

/-! ## The second sum along the edges -/

theorem read_summed2 (X : Valuation τ sig (Elt Ideal)) :
    StableHlo.after hostOps2 X (Proc.devRef .tc main_v40)
      = edgeSum (X (Proc.devRef .tc main_v29)) (X (Proc.devRef .tc main_arg1)) (X (Proc.devRef .tc main_arg2)) := by
  read_results
  rfl
theorem keep2_arg5 (X : Valuation τ sig (Elt Ideal)) : StableHlo.after hostOps2 X (Proc.devRef .tc main_arg5) = X (Proc.devRef .tc main_arg5) := by keeps hostOps2
theorem keep2_v14 (X : Valuation τ sig (Elt Ideal)) : StableHlo.after hostOps2 X (Proc.devRef .tc main_v14) = X (Proc.devRef .tc main_v14) := by keeps hostOps2
theorem keep2_v16 (X : Valuation τ sig (Elt Ideal)) : StableHlo.after hostOps2 X (Proc.devRef .tc main_v16) = X (Proc.devRef .tc main_v16) := by keeps hostOps2

theorem at9_v40 (c : Dev nD) : V9 m ρ c main_v40 = summed2 m c := by
  show StableHlo.after hostOps2 (W8 m ρ c) (Proc.devRef .tc main_v40) = _
  rw [read_summed2]
  show edgeSum (V8 m ρ c main_v29) (V8 m ρ c main_arg1) (V8 m ρ c main_arg2) = _
  rw [at8_v29 m ρ c, at8_arg1 m ρ c, at8_arg2 m ρ c]
  rfl
theorem at9_arg5 (c : Dev nD) : V9 m ρ c main_arg5 = (m ((c : Thread nD τ).loc main_arg5)) := (keep2_arg5 (W8 m ρ c)).trans (at8_arg5 m ρ c)
theorem at9_v14 (c : Dev nD) : V9 m ρ c main_v14 = (inFactor m c) := (keep2_v14 (W8 m ρ c)).trans (at8_v14 m ρ c)
theorem at9_v16 (c : Dev nD) : V9 m ρ c main_v16 = (biasRow2 m c) := (keep2_v16 (W8 m ρ c)).trans (at8_v16 m ρ c)

/-! ## Region three: the result -/

/-- What region three's write-backs leave in the result array is the two layers of the argument arrays. -/
theorem result_eq (c : Dev nD) :
    (dat2 (V9 m ρ) c).arrAt 4 cfg2.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Cert.KernelIdeal.DenseRegion.final (V9 m ρ) c).trans (by
    rw [at9_v40 m ρ c, at9_v14 m ρ c, at9_arg5 m ρ c, at9_v16 m ρ c]; rfl)

end Cert.KernelIdeal.Stages

end
-- ==== Proof.RefStages.lean ====
/-
  The reference program's result as the two layers of its argument arrays.

  The reference computes each layer on whole arrays: the node rows times the out-degree factor (the factor vector spread
  to a column and over the lanes), the sum along the edges, the rows times the in-degree factor, a plain product with the
  weights, the bias vector spread to a row and over the rows; after the first layer the maximum with zero. It computes the
  two degree factors again for the second layer, by the same operations of the same index arrays. Read at an entry, each
  whole-array stretch is one of the three row-wise stages with the factor a column and the bias a row; the sums along the
  edges and the degree factors are carried as they stand.
-/
import proofs.«119130_j43009802502553_2_alg».proof.Proof.Gen.ReferenceIdeal.Run
import proofs.«119130_j43009802502553_2_alg».proof.Proof.LibGcnTile

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.ShloMosaic.ValueIdx Idealize.SL.Sem

theorem casts_col : S50000.ShapeCasts S50000x1 := by decide
theorem casts_row : S64.ShapeCasts S1x64 := by decide

/-- The degree factor of an index array: occurrences counted by an accumulating scatter of ones into zeros, the maximum
    with 1, the power −1/2. -/
def degNorm (idx : (⟨S800000, .i32⟩ : BufTy).Contents (Elt Ideal)) : (⟨S50000, .f32⟩ : BufTy).Contents (Elt Ideal) :=
  Host.powf (maximumf (broadcastInDim S50000 ![] bcast_S_S50000 (id (constant (F := Ideal) S_ .f32 0x3F800000#32)))
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32))))
    (broadcastInDim S50000 ![] bcast_S_S50000 (constant (F := Ideal) S_ .f32 0xBF000000#32))

/-- The sum along the edges: rows of h gathered at the sources (a negative index moved up by 50000), accumulated into
    zeros at the targets. -/
def edgeSum (h : S50000x64.Idx → EReal) (src dst : (⟨S800000, .i32⟩ : BufTy).Contents (Elt Ideal)) : S50000x64.Idx → EReal :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

def colOf (v : (⟨S50000, .f32⟩ : BufTy).Contents (Elt Ideal)) : S50000x1.Idx → EReal := shapeCast S50000x1 v casts_col
def rowOf (b : (⟨S64, .f32⟩ : BufTy).Contents (Elt Ideal)) : S1x64.Idx → EReal := shapeCast S1x64 b casts_row

/-- The two layers as one function of the seven argument arrays. -/
def result (x : S50000x64.Idx → EReal) (src dst : (⟨S800000, .i32⟩ : BufTy).Contents (Elt Ideal))
    (W1 : S64x64.Idx → EReal) (b1 : (⟨S64, .f32⟩ : BufTy).Contents (Elt Ideal))
    (W2 : S64x64.Idx → EReal) (b2 : (⟨S64, .f32⟩ : BufTy).Contents (Elt Ideal)) : S50000x64.Idx → EReal :=
  GcnTile.denseRows
    (edgeSum (GcnTile.fusedRows (edgeSum (GcnTile.scaleRows x (colOf (degNorm src))) src dst)
      (colOf (degNorm dst)) W1 (rowOf b1) (colOf (degNorm src))) src dst)
    (colOf (degNorm dst)) W2 (rowOf b2)

/-- The run's composed term is the two layers: the outer dense stage, the fused stage inside the second sum along the
    edges, and the row scaling inside the first. -/
theorem res_eq (m : (ℓ : Loc nD τ sig) → Buf (Elt Ideal) ℓ) (c : Dev nD) :
    res_main_v66 (F := Ideal) m c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v66
  rw [GcnTile.host_dense dot_S50000x64_S64x64_S50000x64_1_0_0_1_n_n rfl (hc := casts_col) (hr := casts_row),
    GcnTile.host_fused dot_S50000x64_S64x64_S50000x64_1_0_0_1_n_n rfl (hc := casts_col) (hr := casts_row),
    GcnTile.host_scale (hc := casts_col)]
  rfl

end Cert.ReferenceIdeal.Stages

end
-- ==== Proof.lean ====
/-
  Two graph-convolution layers, tiled against whole-array.

  Both programs compute, on the extended reals, out = L₂ (max (L₁ x) 0) with
  L (h) = (D_in · A (D_out · h)) · W + b: D_out and D_in scale node p's row by clip(deg, 1)^(−1/2) of its out- and
  in-degree, the degrees counted from the edge lists by an accumulating scatter of ones, and A sums, into each node,
  the rows gathered at the sources of the edges that end in it. The reference takes every step on whole [50000, 64]
  arrays. The kernel program takes the gathers, the scatters and the degree factors on whole arrays too, by the same host
  operations, and the row-wise steps in three tiled regions of ten blocks of 5000 rows: D_out · x; then
  max ((D_in · a) · W₁ + b₁, 0) scaled by D_out for the next layer; then (D_in · a) · W₂ + b₂. It narrows the operands of
  its products and the rows it hands to the gathers to a shorter float format, which is the identity on the extended
  reals.

  A row of a row-wise step reads only the same row of its inputs, so each region's ten write-backs assemble the step of
  the whole arrays (one module per region). Read at an entry both programs' row-wise steps are the same three functions
  — the same products in the same order, the same sum over the 64 contracted positions, the same maximum — so no entry
  is assumed finite and the precondition is never opened. The sums along the edges and the degree factors are the same
  operations in both programs and are carried as they stand; the reference's second computation of the degree factors is
  the first one again.

  Frames: the two kernel programs' by their generated frame proofs, the reference's by its generated run. The idealized
  kernel program is the printed one read on the extended reals (no rewrite was applied), so that claim is trivial.
-/
import proofs.«119130_j43009802502553_2_alg».proof.Defs
import proofs.«119130_j43009802502553_2_alg».proof.Proof.Gen.Kernel
import proofs.«119130_j43009802502553_2_alg».proof.Proof.Gen.Kernel.Skeleton
import proofs.«119130_j43009802502553_2_alg».proof.Proof.Gen.Kernel.Launch
import proofs.«119130_j43009802502553_2_alg».proof.Proof.Gen.Kernel.Points
import proofs.«119130_j43009802502553_2_alg».proof.Proof.Gen.Kernel.Frame
import proofs.«119130_j43009802502553_2_alg».proof.Proof.Gen.KernelIdeal
import proofs.«119130_j43009802502553_2_alg».proof.Proof.Gen.KernelIdeal.Skeleton
import proofs.«119130_j43009802502553_2_alg».proof.Proof.Gen.KernelIdeal.Launch
import proofs.«119130_j43009802502553_2_alg».proof.Proof.Gen.KernelIdeal.Points
import proofs.«119130_j43009802502553_2_alg».proof.Proof.Gen.KernelIdeal.Frame
import proofs.«119130_j43009802502553_2_alg».proof.Proof.Gen.ReferenceIdeal
import proofs.«119130_j43009802502553_2_alg».proof.Proof.Gen.ReferenceIdeal.Run
import proofs.«119130_j43009802502553_2_alg».proof.Proof.Gen.Pre_finite_inputs
import proofs.«119130_j43009802502553_2_alg».proof.Proof.KResultRun
import proofs.«119130_j43009802502553_2_alg».proof.Proof.KStages
import proofs.«119130_j43009802502553_2_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs' layers are one function of the argument arrays: the same shapes, dimension numbers and words. -/
theorem layers_eq (x : Cert.KernelIdeal.S50000x64.Idx → EReal)
    (src dst : (⟨Cert.KernelIdeal.S800000, .i32⟩ : BufTy).Contents (Elt Ideal))
    (W1 : Cert.KernelIdeal.S64x64.Idx → EReal) (b1 : (⟨Cert.KernelIdeal.S64, .f32⟩ : BufTy).Contents (Elt Ideal))
    (W2 : Cert.KernelIdeal.S64x64.Idx → EReal) (b2 : (⟨Cert.KernelIdeal.S64, .f32⟩ : BufTy).Contents (Elt Ideal)) :
    Cert.ReferenceIdeal.Stages.result x src dst W1 b1 W2 b2 = Cert.KernelIdeal.Stages.result x src dst W1 b1 W2 b2 := rfl

/-- From memories that agree on the seven arguments both programs end with the two layers of those arguments in their
    result arrays. -/
theorem algebraic : Cert.algebraic_KernelIdeal_ReferenceIdeal := by
  intro m ρ m' ρ' _ hagree
  refine ⟨fun c => Cert.KernelIdeal.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Stages.result_eq m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Stages.res_eq m' c, (hagree c).1, (hagree c).2.1, (hagree c).2.2.1, (hagree c).2.2.2.1,
      (hagree c).2.2.2.2.1, (hagree c).2.2.2.2.2.1, (hagree c).2.2.2.2.2.2]
    exact layers_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
